-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S1638400 : Shape := ⟨1, ![1638400]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S1638400 : S_.BroadcastsInDim S1638400 (![] : Fin 0 → Fin S1638400.rank)
  reducesTo_S1638400_S_d0 : S1638400.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x8192 .f32) (main_arg1 : IVec S1638400 32) (main_arg2 : IVec S1638400 32) (main_arg3 : FVec F S1638400 .f32) (main_arg4 : FVec F S4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S1638400 .f32 := Host.absf main_arg3
  let main_cst_0 : FVec F S_ .f32 := constant S_ .f32 0x7F800000#32
  let main_v5 : FVec F S1638400 .f32 := broadcastInDim S1638400 ![] bcast_S_S1638400 main_cst_0
  let main_v6 : IVec S1638400 1 := cmpf .olt main_v4 main_v5
  let main_c_1 : IVec S_ 1 := constantI S_ 1 1#1
  let main_v7 : IVec S_ 1 := (fun x v => Host.reduce IntOp.andi x v reducesTo_S1638400_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x8192 : Shape := ⟨2, ![4096, 8192]⟩
abbrev S1638400 : Shape := ⟨1, ![1638400]⟩
abbrev S4096 : Shape := ⟨1, ![4096]⟩
abbrev S_ : Shape := ⟨0, ![]⟩
abbrev S33554432 : Shape := ⟨1, ![33554432]⟩
abbrev S1638400x1 : Shape := ⟨2, ![1638400, 1]⟩
abbrev S8192x4096 : Shape := ⟨2, ![8192, 4096]⟩
abbrev S1x4096 : Shape := ⟨2, ![1, 4096]⟩
abbrev S4096x4096 : Shape := ⟨2, ![4096, 4096]⟩
abbrev S1024x1024 : Shape := ⟨2, ![1024, 1024]⟩
abbrev S1x1024 : Shape := ⟨2, ![1, 1024]⟩

abbrev nBuf : Space → Nat
  | .hbm => 25
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S1638400, .i32⟩
  | .hbm, ⟨2, _⟩ => ⟨S1638400, .i32⟩
  | .hbm, ⟨3, _⟩ => ⟨S1638400, .f32⟩
  | .hbm, ⟨4, _⟩ => ⟨S4096, .f32⟩
  | .hbm, ⟨5, _⟩ => ⟨S_, .i32⟩
  | .hbm, ⟨6, _⟩ => ⟨S1638400, .i32⟩
  | .hbm, ⟨7, _⟩ => ⟨S1638400, .i32⟩
  | .hbm, ⟨8, _⟩ => ⟨S1638400, .i32⟩
  | .hbm, ⟨9, _⟩ => ⟨S_, .f32⟩
  | .hbm, ⟨10, _⟩ => ⟨S33554432, .f32⟩
  | .hbm, ⟨11, _⟩ => ⟨S_, .i32⟩
  | .hbm, ⟨12, _⟩ => ⟨S1638400, .i32⟩
  | .hbm, ⟨13, _⟩ => ⟨S1638400, .i1⟩
  | .hbm, ⟨14, _⟩ => ⟨S_, .i32⟩
  | .hbm, ⟨15, _⟩ => ⟨S1638400, .i32⟩
  | .hbm, ⟨16, _⟩ => ⟨S1638400, .i32⟩
  | .hbm, ⟨17, _⟩ => ⟨S1638400, .i32⟩
  | .hbm, ⟨18, _⟩ => ⟨S1638400x1, .i32⟩
  | .hbm, ⟨19, _⟩ => ⟨S33554432, .f32⟩
  | .hbm, ⟨20, _⟩ => ⟨S8192x4096, .f32⟩
  | .hbm, ⟨21, _⟩ => ⟨S4096x8192, .bf16⟩
  | .hbm, ⟨22, _⟩ => ⟨S8192x4096, .bf16⟩
  | .hbm, ⟨23, _⟩ => ⟨S1x4096, .f32⟩
  | .hbm, ⟨24, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S1638400 : S_.BroadcastsInDim S1638400 (![] : Fin 0 → Fin S1638400.rank)
  bcast_S_S33554432 : S_.BroadcastsInDim S33554432 (![] : Fin 0 → Fin S33554432.rank)
  bcast_S1638400_S1638400x1_0 : S1638400.BroadcastsInDim S1638400x1 (![0] : Fin 1 → Fin S1638400x1.rank)
  shapeCasts_S33554432_S8192x4096 : S33554432.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S33554432_S1638400x1_S1638400_n_0_0_1_wf : ScatterDims.WF S33554432 S1638400x1 S1638400 [] [0] [0] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .bf16 = 32 ∨ (Rect.block (s := S4096x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .bf16 = 32 ∨ (Rect.block (s := S8192x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S33554432_S1638400x1_S1638400_n_0_0_1 : ScatterDims S33554432 S1638400x1 S1638400 where
  updateWindowDims := []
  insertedWindowDims := [0]
  scatterDimsToOperandDims := [0]
  indexVectorDim := 1
  wf := scatter_S33554432_S1638400x1_S1638400_n_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S1638400 : Shape := ⟨1, ![1638400]⟩
abbrev S4096 : Shape := ⟨1, ![4096]⟩
abbrev S_ : Shape := ⟨0, ![]⟩
abbrev S33554432 : Shape := ⟨1, ![33554432]⟩
abbrev S1638400x1 : Shape := ⟨2, ![1638400, 1]⟩
abbrev S8192x4096 : Shape := ⟨2, ![8192, 4096]⟩
abbrev S4096x4096 : Shape := ⟨2, ![4096, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1638400, .i32⟩
  | .hbm, ⟨2, _⟩ => ⟨S1638400, .i32⟩
  | .hbm, ⟨3, _⟩ => ⟨S1638400, .f32⟩
  | .hbm, ⟨4, _⟩ => ⟨S4096, .f32⟩
  | .hbm, ⟨5, _⟩ => ⟨S_, .i32⟩
  | .hbm, ⟨6, _⟩ => ⟨S1638400, .i32⟩
  | .hbm, ⟨7, _⟩ => ⟨S1638400, .i32⟩
  | .hbm, ⟨8, _⟩ => ⟨S1638400, .i32⟩
  | .hbm, ⟨9, _⟩ => ⟨S_, .f32⟩
  | .hbm, ⟨10, _⟩ => ⟨S33554432, .f32⟩
  | .hbm, ⟨11, _⟩ => ⟨S_, .i32⟩
  | .hbm, ⟨12, _⟩ => ⟨S1638400, .i32⟩
  | .hbm, ⟨13, _⟩ => ⟨S1638400, .i1⟩
  | .hbm, ⟨14, _⟩ => ⟨S_, .i32⟩
  | .hbm, ⟨15, _⟩ => ⟨S1638400, .i32⟩
  | .hbm, ⟨16, _⟩ => ⟨S1638400, .i32⟩
  | .hbm, ⟨17, _⟩ => ⟨S1638400, .i32⟩
  | .hbm, ⟨18, _⟩ => ⟨S1638400x1, .i32⟩
  | .hbm, ⟨19, _⟩ => ⟨S33554432, .f32⟩
  | .hbm, ⟨20, _⟩ => ⟨S8192x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S1638400 : S_.BroadcastsInDim S1638400 (![] : Fin 0 → Fin S1638400.rank)
  bcast_S_S33554432 : S_.BroadcastsInDim S33554432 (![] : Fin 0 → Fin S33554432.rank)
  bcast_S1638400_S1638400x1_0 : S1638400.BroadcastsInDim S1638400x1 (![0] : Fin 1 → Fin S1638400x1.rank)
  shapeCasts_S33554432_S8192x4096 : S33554432.ShapeCasts S8192x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S33554432_S1638400x1_S1638400_n_0_0_1_wf : ScatterDims.WF S33554432 S1638400x1 S1638400 [] [0] [0] 1
  dot_S4096x8192_S8192x4096_S4096x4096_1_0_0_1_n_n_wf : DotDims.WF S4096x8192 S8192x4096 S4096x4096 [1] [0] [0] [1] [] []

variable [Facts₀]

def scatter_S33554432_S1638400x1_S1638400_n_0_0_1 : ScatterDims S33554432 S1638400x1 S1638400 where
  updateWindowDims := []
  insertedWindowDims := [0]
  scatterDimsToOperandDims := [0]
  indexVectorDim := 1
  wf := scatter_S33554432_S1638400x1_S1638400_n_0_0_1_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf

class Facts : Prop extends Facts₀ where

variable [Facts]
-- ==== Proof.Pieces.lean ====
/-
  What one grid step leaves behind, as values.

  The kernel walks the contraction axis of `x · W` in eight steps per output block. A step loads an
  [1024, 1024] block `a` of `x`, a [1024, 1024] block `b` of `W` and the accumulator, and stores
  `acc + a · b` back into the accumulator; the first step of a block zeroes the accumulator before reading it, and
  the last also stores the output block `acc + bias`, the bias row broadcast down the rows. The frame run found, for
  each of the three kinds of step, the list of stores it makes; here each list is read back as ONE value: every store
  covers its whole buffer, so what is left is the last store's payload, and a load that follows a covering store
  reads that store's payload. The lemmas hold for any float instance.
-/
import proofs.«146017_j4226247819797_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem

namespace Cert.KernelIdeal.Pieces
open Cert.KernelIdeal Cert.KernelIdeal.Gen
variable {F : FTy → Type} [FloatOps F]

/-- The offset of every load and store of the body: the origin of its buffer. -/
theorem hz : (![0, 0] : Fin 2 → Nat) = fun _ => 0 := funext fun a => by fin_cases a <;> rfl

/-- A middle step of the contraction (neither the first nor the last block of the axis): the accumulator, holding
    `acc`, is left holding `acc + a · b` of the step's two input blocks — the body's one store into it, whose
    three loads read the accumulator and the two blocks whole. -/
theorem scratch_mid (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h7.read_unread, h3.read_unread, h4.read_unread, View.ld_unit_zero (S := S1024x1024) hz]

/-- The last step of the contraction leaves the same in the accumulator: `acc + a · b`. -/
theorem scratch_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S1024x1024) hz]
  simp only [View.readAt_eq_ld, h7.read_unread, h3.read_unread, h4.read_unread, View.ld_unit_zero (S := S1024x1024) hz]

/-- The last step also stores the output block: the accumulator just updated, plus the bias row broadcast down the
    block's rows. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S1024x1024) hz, View.readCov_unit_zero (S := S1024x1024) _ hz]
  simp only [View.readAt_eq_ld, h7.read_unread, h3.read_unread, h4.read_unread, h5.read_unread,
    View.ld_unit_zero (S := S1024x1024) hz, View.ld_unit_zero (S := S1x1024) hz]

/-- The first step of the contraction stores the zero block into the accumulator, reads it back, and leaves
    `0 + a · b`. -/
theorem scratch_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Pieces
end
-- ==== Proof.Payload.lean ====
/-
  One grid step's arithmetic, entry by entry, over the extended reals.

  At the ideal instance a float is an extended real and every operation is the exact one, so the three values a step
  stores are, at row `p` and column `q` of a [1024, 1024] block:
    * the reset stores `0`;
    * the accumulation stores `acc p q + ∑ₖ a p k · b k q`, `k` over the 1024 positions of the step's slice of the
      contraction axis — the matrix unit's product into a zero accumulator is the plain sum of products, and the
      change of format of the two operands on their way in is the identity;
    * the epilogue stores `acc p q + bias 0 q` — the one bias row is read on every row of the block.
  Every index is built from coordinates of literal extent, so that the entries of different arrays are never
  confused.
-/
import proofs.«146017_j4226247819797_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx

namespace Cert.KernelIdeal.Payload
open Cert.KernelIdeal Cert.KernelIdeal.Gen

/-- The reset block is zero everywhere. -/
theorem zero_apply (j : S1024x1024.Idx) : k0_pay1 (F := Ideal) j = 0 := by
  unfold k0_pay1
  rw [shapeCast_self]
  show Ideal.ofBits .f32 0x00000000#32 = 0
  exact Ideal.ofBits_zero_f32

/-! ### The matrix product of two blocks at an entry

The product contracts axis 1 of the left block with axis 0 of the right one. Its contraction index has one
coordinate, of extent 1024; the left factor sits at (row of the output, that coordinate), the right factor at (that
coordinate, column of the output). -/

theorem lhs_row (i : S1024x1024.Idx) (r : dot_S1024x1024_S1024x1024_S1024x1024_1_0_0_1_n_n.contr.Idx) :
    (dot_S1024x1024_S1024x1024_S1024x1024_1_0_0_1_n_n.lhsIdx i r 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_col (i : S1024x1024.Idx) (r : dot_S1024x1024_S1024x1024_S1024x1024_1_0_0_1_n_n.contr.Idx) :
    (dot_S1024x1024_S1024x1024_S1024x1024_1_0_0_1_n_n.lhsIdx i r 1).val = (r ⟨0, by decide⟩).val :=
  dot_S1024x1024_S1024x1024_S1024x1024_1_0_0_1_n_n.lhsIdx_val_of_single rfl i r
theorem rhs_row (i : S1024x1024.Idx) (r : dot_S1024x1024_S1024x1024_S1024x1024_1_0_0_1_n_n.contr.Idx) :
    (dot_S1024x1024_S1024x1024_S1024x1024_1_0_0_1_n_n.rhsIdx i r 0).val = (r ⟨0, by decide⟩).val :=
  dot_S1024x1024_S1024x1024_S1024x1024_1_0_0_1_n_n.rhsIdx_val_of_single rfl i r
theorem rhs_col (i : S1024x1024.Idx) (r : dot_S1024x1024_S1024x1024_S1024x1024_1_0_0_1_n_n.contr.Idx) :
    (dot_S1024x1024_S1024x1024_S1024x1024_1_0_0_1_n_n.rhsIdx i r 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two blocks into the zero accumulator, at entry `(p, q)`: `∑ₖ a p k · b k q`. -/
theorem prod_apply (a b : FVec Ideal S1024x1024 .bf16) (p q : Fin 1024) :
    matmul dot_S1024x1024_S1024x1024_S1024x1024_1_0_0_1_n_n none a b (constant S1024x1024 .f32 0x00000000#32) (ix2 p q)
      = ∑ k : Fin 1024, a (ix2 p k) * b (ix2 k q) := by
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact lhs_row _ _
    | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (rhs_row _ _).trans hk
    | ⟨1, _⟩ => exact rhs_col _ _)
  rw [el, er]

/-- The accumulation at entry `(p, q)`: what the accumulator held there plus `∑ₖ a p k · b k q`. -/
theorem step_apply (acc : Vec Ideal S1024x1024 .f32) (a b : Vec Ideal S1024x1024 .bf16) (p q : Fin 1024) :
    k0_pay2 acc a b (ix2 p q) = acc (ix2 p q) + ∑ k : Fin 1024, a (ix2 p k) * b (ix2 k q) := by
  unfold k0_pay2
  simp only [shapeCast_self]
  exact congrArg (acc (ix2 p q) + ·) (prod_apply a b p q)

/-- The epilogue at entry `(p, q)`: the accumulator there plus the bias row's entry `q`. -/
theorem out_apply (acc : Vec Ideal S1024x1024 .f32) (bias : Vec Ideal S1x1024 .f32) (p q : Fin 1024) :
    k0_pay3 acc bias (ix2 p q) = acc (ix2 p q) + bias (ix2 (0 : Fin 1) q) := by
  unfold k0_pay3
  simp only [shapeCast_self]
  exact congrArg (acc (ix2 p q) + ·) (broadcastTo_1b_ab_apply bias broadcasts_S1x1024_S1024x1024 p q)

end Cert.KernelIdeal.Payload
end
-- ==== Proof.Blocks.lean ====
/-
  Where a grid step's input blocks sit in their arrays, and what those arrays hold when the kernel starts.

  The grid has 4 · 4 · 8 = 128 points; point `t` is step `t % 8` of the contraction for the output block in block-row
  `t / 32` and block-column `t / 8 % 4`. At point `t` the kernel reads
    * rows `1024 (t / 32) …`, columns `1024 (t % 8) …` of `x` (rounded to bf16 on the host: the identity at Ideal),
    * rows `1024 (t % 8) …`, columns `1024 (t / 8 % 4) …` of the dense weight matrix (also rounded on the host),
    * columns `1024 (t / 8 % 4) …` of the bias, reshaped to one row.
  The dense weight matrix is built on the host before the kernel runs, by scatter-adding the `weights` into a zero
  vector of length 8192 · 4096 at the flat positions `row_idx · 4096 + col_idx` (a negative position is first moved up
  by the length) and reshaping to [8192, 4096]. It is named `wmat` here and NEVER opened: the reference builds the same
  matrix by the same operations, and nothing else about it is needed.
-/
import proofs.«146017_j4226247819797_1_alg».proof.Proof.Gen.KernelIdeal.Frame.Runs
import Idealize.ShloMosaic.Lib.Pipeline.Value
import Idealize.ShloMosaic.Lib.ValueIdx
import Idealize.ShloMosaic.Lib.StableHlo.Run
import Idealize.ShloMosaic.Lib.Tactic

noncomputable section
open Idealize.ShloMosaic Idealize.ShloMosaic.TcCoe Idealize.SL.Sem Idealize.ShloMosaic.ValueIdx

namespace Cert.KernelIdeal.Blocks
open Cert.KernelIdeal Cert.KernelIdeal.Gen

variable {F : FTy → Type} [FloatOps F]

/-- The dense weight matrix as the host builds it from the two index vectors and the weights. -/
def wmat (x1 x2 : (⟨S1638400, .i32⟩ : BufTy).Contents (Elt F)) (x3 : (⟨S1638400, .f32⟩ : BufTy).Contents (Elt F)) :
    (⟨S8192x4096, .f32⟩ : BufTy).Contents (Elt F) :=
  shapeCast _ (Host.scatterAdd scatter_S33554432_S1638400x1_S1638400_n_0_0_1 (broadcastInDim S33554432 ![] bcast_S_S33554432 (constant S_ .f32 0x00000000#32)) (broadcastInDim S1638400x1 ![0] bcast_S1638400_S1638400x1_0 (select (cmpi .slt (addi (muli (x1) (broadcastInDim S1638400 ![] bcast_S_S1638400 (constantI S_ 32 4096#32))) (x2)) (broadcastInDim S1638400 ![] bcast_S_S1638400 (constantI S_ 32 0#32))) (addi (addi (muli (x1) (broadcastInDim S1638400 ![] bcast_S_S1638400 (constantI S_ 32 4096#32))) (x2)) (broadcastInDim S1638400 ![] bcast_S_S1638400 (constantI S_ 32 33554432#32))) (addi (muli (x1) (broadcastInDim S1638400 ![] bcast_S_S1638400 (constantI S_ 32 4096#32))) (x2)))) (x3)) shapeCasts_S33554432_S8192x4096

variable (m : (ℓ : Loc nD τ sig) → Buf (Elt F) ℓ)

/-! ### The three arrays the kernel's windows read, at region entry -/

/-- Window 0's array is `x` rounded to bf16. -/
theorem V_x (c : Dev nD) :
    V m c main_v12 = (truncf .bf16 (m ((c : Thread nD τ).loc main_arg0)) bitsLt_bf16_f32 : (⟨S4096x8192, .bf16⟩ : BufTy).Contents (Elt F)) := by
  dsimp only [Gen.V, Gen.hostOps0]; after_results <;> rfl

set_option maxHeartbeats 2000000 in
/-- Window 1's array is the dense weight matrix rounded to bf16. -/
theorem V_w (c : Dev nD) :
    V m c main_v13 = (truncf .bf16 (wmat (m ((c : Thread nD τ).loc main_arg1)) (m ((c : Thread nD τ).loc main_arg2)) (m ((c : Thread nD τ).loc main_arg3))) bitsLt_bf16_f32 : (⟨S8192x4096, .bf16⟩ : BufTy).Contents (Elt F)) := by
  unfold wmat
  dsimp only [Gen.V, Gen.hostOps0]; after_results_simp <;> rfl

/-- Window 2's array is the bias as one row. -/
theorem V_b (c : Dev nD) :
    V m c main_v14 = (shapeCast _ (m ((c : Thread nD τ).loc main_arg4)) shapeCasts_S4096_S1x4096 : (⟨S1x4096, .f32⟩ : BufTy).Contents (Elt F)) := by
  dsimp only [Gen.V, Gen.hostOps0]; after_results <;> rfl

/-! ### The index maps, decided once over the 128 points -/

theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-! ### A block's entry is its array's entry

An entry of a block sits in the array, on each axis, at block index × 1024 + its coordinate in the block. -/

/-- Entry `(p, k)` of the `x` block at point `t` is entry `(1024 (t / 32) + p, 1024 (t % 8) + k)` of the array. -/
theorem xblk_apply (c : Dev nD) (t : Fin cfg0.N) (p k : Fin 1024) (P : Fin 4096) (K : Fin 8192)
    (hP : P.val = 1024 * (t.val / 32) + p.val) (hK : K.val = 1024 * (t.val % 8) + k.val) :
    (iblk m c 0 t : Vec F S1024x1024 .bf16) (ix2 p k) = V m c main_v12 (ix2 P K) := by
  obtain ⟨e0, e1, -⟩ := idx_facts t
  unfold iblk
  rw [View.read_apply]
  show V m c main_v12 _ = V m c main_v12 _
  refine congrArg (V m c main_v12) (funext fun a => Fin.ext ?_)
  match a with
  | ⟨0, _⟩ => show win0_0.index t (0 : Fin 2) * 1024 + 1 * p.val = P.val; omega
  | ⟨1, _⟩ => show win0_0.index t (1 : Fin 2) * 1024 + 1 * k.val = K.val; omega

/-- Entry `(k, q)` of the weight block at point `t` is entry `(1024 (t % 8) + k, 1024 (t / 8 % 4) + q)` of the array. -/
theorem wblk_apply (c : Dev nD) (t : Fin cfg0.N) (k q : Fin 1024) (K : Fin 8192) (Q : Fin 4096)
    (hK : K.val = 1024 * (t.val % 8) + k.val) (hQ : Q.val = 1024 * (t.val / 8 % 4) + q.val) :
    (iblk m c 1 t : Vec F S1024x1024 .bf16) (ix2 k q) = V m c main_v13 (ix2 K Q) := by
  obtain ⟨-, -, e0, e1, -⟩ := idx_facts t
  unfold iblk
  rw [View.read_apply]
  show V m c main_v13 _ = V m c main_v13 _
  refine congrArg (V m c main_v13) (funext fun a => Fin.ext ?_)
  match a with
  | ⟨0, _⟩ => show win0_1.index t (0 : Fin 2) * 1024 + 1 * k.val = K.val; omega
  | ⟨1, _⟩ => show win0_1.index t (1 : Fin 2) * 1024 + 1 * q.val = Q.val; omega

/-- Entry `(0, q)` of the bias block at point `t` is entry `(0, 1024 (t / 8 % 4) + q)` of the bias row. -/
theorem bblk_apply (c : Dev nD) (t : Fin cfg0.N) (q : Fin 1024) (Q : Fin 4096)
    (hQ : Q.val = 1024 * (t.val / 8 % 4) + q.val) :
    (iblk m c 2 t : Vec F S1x1024 .f32) (ix2 (0 : Fin 1) q) = V m c main_v14 (ix2 (0 : Fin 1) Q) := by
  obtain ⟨-, -, -, -, e0, e1, -⟩ := idx_facts t
  unfold iblk
  rw [View.read_apply]
  show V m c main_v14 _ = V m c main_v14 _
  refine congrArg (V m c main_v14) (funext fun a => Fin.ext ?_)
  match a with
  | ⟨0, _⟩ => show win0_2.index t (0 : Fin 2) * 1 + 1 * 0 = 0; omega
  | ⟨1, _⟩ => show win0_2.index t (1 : Fin 2) * 1024 + 1 * q.val = Q.val; omega

end Cert.KernelIdeal.Blocks
end
-- ==== Proof.BlockSum.lean ====
/-
  A finite sum taken block by block.

  The contraction axis of the matrix product has length `a * b`; the kernel walks it in `a` consecutive
  blocks of `b` entries, adding each block's partial sum to an accumulator that starts at zero. Position
  `q` of block `s` is entry `b * s + q` of the axis. In any commutative additive monoid — the extended
  reals included, where `+` is commutative and associative everywhere, the infinities not excepted — the sum
  over the axis is the sum over the blocks of the blocks' sums. No subtraction, cancellation or distributivity
  is used, so nothing here asks an entry to be finite.
-/
import Mathlib.Algebra.BigOperators.Fin
import Mathlib.Logic.Equiv.Fin.Basic

namespace Cert.BlockSum

open Finset

/-- Position `q` of block `s` lies on the axis. -/
theorem blk_lt {a b s q : ℕ} (hs : s < a) (hq : q < b) : b * s + q < a * b :=
  calc b * s + q < b * s + b := Nat.add_lt_add_left hq _
    _ = b * (s + 1) := (Nat.mul_succ b s).symm
    _ ≤ b * a := Nat.mul_le_mul_left b hs
    _ = a * b := Nat.mul_comm b a

/-- The sum over an axis of length `a * b` is the sum, over the `a` blocks, of each block's `b` entries:
    entry `q` of block `p` is `finProdFinEquiv (p, q)`, whose value is `q + b * p`. -/
theorem sum_eq_sum_blocks {M : Type*} [AddCommMonoid M] (a b : ℕ) (f : Fin (a * b) → M) :
    ∑ k, f k = ∑ p : Fin a, ∑ q : Fin b, f (finProdFinEquiv (p, q)) := by
  rw [← Equiv.sum_comp finProdFinEquiv f, Fintype.sum_prod_type]

/-- The same with the blocks counted by a natural number and each block's sum given by name: if `g s` is the sum
    of block `s`'s entries for every `s < a`, then `∑ s < a, g s` is the sum over the whole axis. -/
theorem sum_range_blocks {M : Type*} [AddCommMonoid M] {n : ℕ} (a b : ℕ) (hn : n = a * b) (f : Fin n → M) (g : ℕ → M)
    (hg : ∀ (s : ℕ) (hs : s < a), g s = ∑ q : Fin b, f ⟨b * s + q.val, hn ▸ blk_lt hs q.isLt⟩) :
    ∑ s ∈ range a, g s = ∑ k, f k := by
  subst hn
  rw [sum_eq_sum_blocks a b f, Finset.sum_range]
  refine Finset.sum_congr rfl fun p _ => ?_
  rw [hg p.val p.isLt]
  refine Finset.sum_congr rfl fun q _ => ?_
  refine congrArg f (Fin.ext ?_)
  show b * p.val + q.val = (finProdFinEquiv (p, q)).val
  rw [finProdFinEquiv_apply_val]
  exact Nat.add_comm _ _

end Cert.BlockSum
-- ==== Proof.Spec.lean ====
/-
  The specification: the result both programs compute, entry by entry.

  For `x` of shape [4096, 8192], a weight matrix `W` of shape [8192, 4096] and a bias of length 4096, entry
  `(P, Q)` of the result is `(∑_K x[P, K] · W[K, Q]) + bias[Q]` over the extended reals. The reference computes
  exactly this. The kernel computes the sum in eight consecutive blocks of 1024 along `K`, each added to an
  accumulator that starts at zero, and adds the bias last: `(0 + ∑_{s < 8} ∑_{k < 1024} x[P, 1024 s + k] ·
  W[1024 s + k, Q]) + bias[Q]`. The two agree because a finite sum in a commutative monoid may be taken block by
  block (`BlockSum`) and `0 + y = y`; both hold for every extended real, so no entry is asked to be finite.
-/
import Idealize.ShloMosaic.PureOps.Ideal
import Idealize.ShloMosaic.Lib.ValueIdx
import proofs.«146017_j4226247819797_1_alg».proof.Proof.BlockSum

noncomputable section
open Idealize.ShloMosaic Idealize.ShloMosaic.ValueIdx

namespace Cert.Spec

/-- Entry `(P, Q)` of `x · W + bias`. -/
def entry (X : (⟨2, ![4096, 8192]⟩ : Shape).Idx → EReal) (W : (⟨2, ![8192, 4096]⟩ : Shape).Idx → EReal)
    (b : (⟨1, ![4096]⟩ : Shape).Idx → EReal) (P Q : Fin 4096) : EReal :=
  (∑ K : Fin 8192, X (ix2 P K) * W (ix2 K Q)) + b (ix1 Q)

/-- The whole result array: `entry` at an index's two coordinates. -/
def G (X : (⟨2, ![4096, 8192]⟩ : Shape).Idx → EReal) (W : (⟨2, ![8192, 4096]⟩ : Shape).Idx → EReal)
    (b : (⟨1, ![4096]⟩ : Shape).Idx → EReal) : (⟨2, ![4096, 4096]⟩ : Shape).Idx → EReal :=
  fun i => entry X W b ⟨(i 0).val, (i 0).isLt⟩ ⟨(i 1).val, (i 1).isLt⟩

theorem G_ix2 (X : (⟨2, ![4096, 8192]⟩ : Shape).Idx → EReal) (W : (⟨2, ![8192, 4096]⟩ : Shape).Idx → EReal)
    (b : (⟨1, ![4096]⟩ : Shape).Idx → EReal) (P Q : Fin 4096) : G X W b (ix2 P Q) = entry X W b P Q := rfl

/-- The kernel's arrangement is the specification: zero, plus the eight blocks' partial sums in order, plus the
    bias. `g s` names block `s`'s partial sum `∑_{k < 1024} x[P, 1024 s + k] · W[1024 s + k, Q]`. -/
theorem entry_of_blocks (X : (⟨2, ![4096, 8192]⟩ : Shape).Idx → EReal) (W : (⟨2, ![8192, 4096]⟩ : Shape).Idx → EReal)
    (b : (⟨1, ![4096]⟩ : Shape).Idx → EReal) (P Q : Fin 4096) (g : ℕ → EReal)
    (hg : ∀ (s : ℕ) (hs : s < 8), g s = ∑ k : Fin 1024,
      X (ix2 P (⟨1024 * s + k.val, by have := k.isLt; omega⟩ : Fin 8192)) * W (ix2 (⟨1024 * s + k.val, by have := k.isLt; omega⟩ : Fin 8192) Q)) :
    (0 + ∑ s ∈ Finset.range 8, g s) + b (ix1 Q) = entry X W b P Q := by
  unfold entry
  rw [zero_add]
  refine congrArg (· + b (ix1 Q)) ?_
  exact BlockSum.sum_range_blocks 8 1024 (by norm_num) (fun K : Fin 8192 => X (ix2 P K) * W (ix2 K Q)) g hg

end Cert.Spec
end
-- ==== Proof.Fold.lean ====
/-
  The accumulator after any grid step, and the block a last step writes back.

  The grid's 128 points fall into 16 runs of 8 consecutive points, one run per output block; within a run the steps
  `s = 0 … 7` walk the eight slices of the contraction axis. Write `P = 1024 I + p`, `Q = 1024 J + q` for the entry of
  the result that entry `(p, q)` of the run's output block is. Step `s` of the run adds to the accumulator, at
  `(p, q)`, the slice's partial product `∑_{k < 1024} x[P, 1024 s + k] · W[1024 s + k, Q]` (`addend`), the first step
  starting from zero; so after step `s` the accumulator holds, at `(p, q)`, `0 + ` the sum of the first `s + 1` partial
  products (`scratch_after`: the generated fold of the run, unrolled by the library's law for a fold whose every step
  adds a term). The last step stores the accumulator plus the bias row into the output block, which is then entry
  `(P, Q)` of the specification (`flush_entry`): the eight partial products are the whole contraction, taken block by
  block.
-/
import proofs.«146017_j4226247819797_1_alg».proof.Proof.Gen.KernelIdeal.Value
import proofs.«146017_j4226247819797_1_alg».proof.Proof.Pieces
import proofs.«146017_j4226247819797_1_alg».proof.Proof.Payload
import proofs.«146017_j4226247819797_1_alg».proof.Proof.Blocks
import proofs.«146017_j4226247819797_1_alg».proof.Proof.Spec
import Idealize.ShloMosaic.Lib.Pipeline.Value
import Idealize.ShloMosaic.Lib.ValueIdx
import Idealize.ShloMosaic.Lib.ValueLayout

noncomputable section
open Idealize.ShloMosaic Idealize.ShloMosaic.TcCoe Idealize.SL.Sem Idealize.ShloMosaic.ValueIdx

namespace Cert.KernelIdeal.Fold
open Cert.KernelIdeal Cert.KernelIdeal.Gen

/-- The partial product point `n`'s step adds at entry `j` of its block, read off the two whole arrays: the slice
    `n % 8` of the contraction axis, for the output block in block-row `n / 32` and block-column `n / 8 % 4`. -/
def addend (X : (⟨S4096x8192, .bf16⟩ : BufTy).Contents (Elt Ideal)) (W : (⟨S8192x4096, .bf16⟩ : BufTy).Contents (Elt Ideal))
    (n : ℕ) (j : S1024x1024.Idx) : EReal :=
  ∑ k : Fin 1024,
    X (ix2 (⟨1024 * (n / 32 % 4) + (j 0).val, by have := idx2_lt0 j; omega⟩ : Fin 4096) (⟨1024 * (n % 8) + k.val, by have := k.isLt; omega⟩ : Fin 8192))
      * W (ix2 (⟨1024 * (n % 8) + k.val, by have := k.isLt; omega⟩ : Fin 8192) (⟨1024 * (n / 8 % 4) + (j 1).val, by have := idx2_lt1 j; omega⟩ : Fin 4096))

variable (m : (ℓ : Loc nD τ sig) → Buf (Elt Ideal) ℓ)

/-- One accumulation, at any point `n` of the grid and entry `i` of the block: what the accumulator held plus the
    point's partial product. -/
theorem step_at (c : Dev nD) (n : ℕ) (h : n < cfg0.N) (acc : Vec Ideal S1024x1024 .f32) (i : S1024x1024.Idx) :
    k0_pay2 acc (iblk m c 0 ⟨n, h⟩) (iblk m c 1 ⟨n, h⟩) i = acc i + addend (V m c main_v12) (V m c main_v13) n i := by
  have hN : n < 128 := lt_of_lt_of_eq h (show cfg0.N = 128 from N_0)
  obtain ⟨p, q, rfl⟩ : ∃ (p q : Fin 1024), i = ix2 p q := ⟨i 0, i 1, eq_ix2 i⟩
  refine (Payload.step_apply acc _ _ p q).trans ?_
  refine congrArg (acc (ix2 p q) + ·) (Finset.sum_congr rfl fun k _ => ?_)
  refine congrArg₂ (· * ·) ?_ ?_
  · exact Blocks.xblk_apply m c ⟨n, h⟩ p k _ _ (by show 1024 * (n / 32 % 4) + p.val = 1024 * (n / 32) + p.val; omega) rfl
  · exact Blocks.wblk_apply m c ⟨n, h⟩ k q _ _ rfl rfl

/-- The accumulator after point `t`, at entry `i`: zero plus the partial products of the run's points up to `t`. -/
theorem scratch_after (c : Dev nD) (t : Fin cfg0.N) (i : S1024x1024.Idx) :
    (outsAt0 m c t.val t.isLt).2 i
      = 0 + ∑ s ∈ Finset.range (t.val % 8 + 1), addend (V m c main_v12) (V m c main_v13) (8 * (t.val / 8) + s) i := by
  have hN : t.val < 128 := lt_of_lt_of_eq t.isLt (show cfg0.N = 128 from N_0)
  rw [Value.soutsAt0_0_eq m c t]
  refine Pipeline.accAt_add_apply _ _ (fun _ => (0 : EReal)) (fun n => addend (V m c main_v12) (V m c main_v13) n)
    (8 * (t.val / 8)) 7 ?_ ?_ (t.val % 8) (by omega) _ i
  · -- the run's first point zeroes the accumulator, reads it back, and adds its partial product
    intro h i
    unfold Value.scAt0_0
    rw [dif_pos (by omega : 8 * (t.val / 8) % 8 = 0), dif_neg (by omega : ¬8 * (t.val / 8) % 8 = 7), Pieces.scratch_first]
    refine (step_at m c _ h _ i).trans ?_
    rw [Payload.zero_apply]
  · -- every later point of the run adds its partial product to what the point before left
    intro n h acc i hlo hhi
    unfold Value.scAt0_0
    by_cases h7 : n % 8 = 7
    · rw [dif_neg (by omega : ¬n % 8 = 0), dif_pos h7, Pieces.scratch_last]
      exact step_at m c n h acc i
    · rw [dif_neg (by omega : ¬n % 8 = 0), dif_neg h7, Pieces.scratch_mid]
      exact step_at m c n h acc i

/-- At a run's last point the output's staging buffer holds the accumulator just updated plus the bias row. -/
theorem out_at_last (c : Dev nD) (t : Fin cfg0.N) (h0 : ¬t.val % 8 = 0) (h1 : t.val % 8 = 7) :
    (outsAt0 m c t.val t.isLt).1 = k0_pay3 ((outsAt0 m c t.val t.isLt).2) (iblk m c 2 t) := by
  rw [outsAt0_C m c t h0 h1]
  dsimp only
  rw [Pieces.out_last, Pieces.scratch_last]

/-- The result array, as the specification of the three arguments and the host's dense weight matrix. -/
def result (c : Dev nD) : Buf (Elt Ideal) ((c : Thread nD τ).loc main_v15) :=
  Spec.G (m ((c : Thread nD τ).loc main_arg0))
    (Blocks.wmat (m ((c : Thread nD τ).loc main_arg1)) (m ((c : Thread nD τ).loc main_arg2)) (m ((c : Thread nD τ).loc main_arg3)))
    (m ((c : Thread nD τ).loc main_arg4))

/-- THE BLOCK A LAST POINT WRITES BACK, entry by entry: entry `(p, q)` of the block is entry `(P, Q)` of the
    specification, `P = 1024 (t / 32) + p`, `Q = 1024 (t / 8 % 4) + q`. -/
theorem flush_entry (c : Dev nD) (t : Fin cfg0.N) (h1 : t.val % 8 = 7) (p q : Fin 1024) (P Q : Fin 4096)
    (hP : P.val = 1024 * (t.val / 32) + p.val) (hQ : Q.val = 1024 * (t.val / 8 % 4) + q.val) :
    k0_pay3 ((outsAt0 m c t.val t.isLt).2) (iblk m c 2 t) (ix2 p q) = result m c (ix2 P Q) := by
  have hN : t.val < 128 := lt_of_lt_of_eq t.isLt (show cfg0.N = 128 from N_0)
  refine (Payload.out_apply _ _ p q).trans ?_
  rw [scratch_after m c t (ix2 p q), h1, Blocks.bblk_apply m c t q Q hQ, Blocks.V_b]
  refine Eq.trans ?_ (Spec.entry_of_blocks _ _ _ P Q
    (fun s => addend (V m c main_v12) (V m c main_v13) (8 * (t.val / 8) + s) (ix2 p q)) ?_)
  · exact congrArg ((0 + ∑ s ∈ Finset.range 8, addend (V m c main_v12) (V m c main_v13) (8 * (t.val / 8) + s) (ix2 p q)) + ·)
      (shapeCast_a_1a_apply (m ((c : Thread nD τ).loc main_arg4)) shapeCasts_S4096_S1x4096 0 Q)
  · intro s hs
    unfold addend
    refine Finset.sum_congr rfl fun k _ => ?_
    rw [Blocks.V_x, Blocks.V_w]
    -- the dense weight matrix stays closed: only WHERE it is read matters here
    generalize Blocks.wmat (m ((c : Thread nD τ).loc main_arg1)) (m ((c : Thread nD τ).loc main_arg2)) (m ((c : Thread nD τ).loc main_arg3)) = Wm
    refine congrArg₂ (· * ·) ?_ ?_
    · show m ((c : Thread nD τ).loc main_arg0) _ = m ((c : Thread nD τ).loc main_arg0) _
      refine congrArg (m ((c : Thread nD τ).loc main_arg0)) (funext fun a => Fin.ext ?_)
      match a with
      | ⟨0, _⟩ => show 1024 * ((8 * (t.val / 8) + s) / 32 % 4) + p.val = P.val; omega
      | ⟨1, _⟩ => show 1024 * ((8 * (t.val / 8) + s) % 8) + k.val = 1024 * s + k.val; omega
    · show Wm _ = Wm _
      refine congrArg Wm (funext fun a => Fin.ext ?_)
      match a with
      | ⟨0, _⟩ => show 1024 * ((8 * (t.val / 8) + s) % 8) + k.val = 1024 * s + k.val; omega
      | ⟨1, _⟩ => show 1024 * ((8 * (t.val / 8) + s) / 8 % 4) + q.val = Q.val; omega

end Cert.KernelIdeal.Fold
end
-- ==== Proof.Final.lean ====
/-
  From the blocks to the whole result array.

  The output's [1024, 1024] blocks tile the [4096, 4096] result, one block per run of eight grid points, written
  back at the run's last point `t` (`t % 8 = 7`) to block-row `t / 32` and block-column `t / 8 % 4`. What that point
  writes back is the specification read through the block (`flushed_eq`, entry by entry from `Fold.flush_entry`), and
  every entry `(P, Q)` of the result lies in the block of the point `32 (P / 1024) + 8 (Q / 1024) + 7` (`cover`). So
  after the run the result array IS the specification of the arguments (`final`), and the kernel's run ends with it
  there and the arguments unchanged (`run`).
-/
import proofs.«146017_j4226247819797_1_alg».proof.Proof.Fold

noncomputable section
open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen

variable (m : (ℓ : Loc nD τ sig) → Buf (Elt Ideal) ℓ) (ρ : Dev nD → PrngReg)

/-- WHAT A LAST POINT WRITES BACK is its block of the specification. -/
theorem flushed_eq (c : Dev nD) (t : Fin cfg0.N) (hf : (cfg0.win 3).flush t = true) :
    (dats m 0 c).flushed 3 t = ((cfg0.win 3).blk t).view.read (Elt Ideal) (Fold.result m c) := by
  have hN : t.val < 128 := lt_of_lt_of_eq t.isLt (show cfg0.N = 128 from N_0)
  have h1 : t.val % 8 = 7 := (flush0_3 t).mp hf
  have h0 : ¬t.val % 8 = 0 := by omega
  obtain ⟨-, -, -, -, -, -, e0, e1⟩ := Blocks.idx_facts t
  rw [Value.flushed3, Fold.out_at_last m c t h0 h1]
  funext j
  have hp : (j 0).val < 1024 := (j 0).isLt
  have hq : (j 1).val < 1024 := (j 1).isLt
  rw [View.read_apply]
  show k0_pay3 (F := Ideal) _ _ j = Fold.result m c _
  have hj : j = ix2 (⟨(j 0).val, hp⟩ : Fin 1024) (⟨(j 1).val, hq⟩ : Fin 1024) :=
    funext fun a => by match a with | ⟨0, _⟩ => rfl | ⟨1, _⟩ => rfl
  have hemb : ((cfg0.win 3).blk t).view.emb j
      = ix2 (⟨1024 * (t.val / 32) + (j 0).val, by omega⟩ : Fin 4096) (⟨1024 * (t.val / 8 % 4) + (j 1).val, by omega⟩ : Fin 4096) := by
    funext a; apply Fin.ext
    match a with
    | ⟨0, _⟩ => show win0_3.index t (0 : Fin 2) * 1024 + 1 * (j 0).val = 1024 * (t.val / 32) + (j 0).val; omega
    | ⟨1, _⟩ => show win0_3.index t (1 : Fin 2) * 1024 + 1 * (j 1).val = 1024 * (t.val / 8 % 4) + (j 1).val; omega
  rw [hemb]
  exact (congrArg (k0_pay3 (F := Ideal) _ _) hj).trans (Fold.flush_entry m c t h1 _ _ _ _ rfl rfl)

/-- An index of the result is in point `t`'s output block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v15).slice (win0_3.rect t)).set ↔ _
  rw [View.set_slice_whole, Rect.mem_set_unit]
  exact Iff.rfl

/-- Every entry of the result is written back by the last point of its block's run. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 128 := N_0
  obtain ⟨t, ht⟩ : ∃ t : Fin cfg0.N, t.val = 32 * ((i 0).val / 1024) + 8 * ((i 1).val / 1024) + 7 :=
    ⟨⟨32 * ((i 0).val / 1024) + 8 * ((i 1).val / 1024) + 7, by rw [hN]; omega⟩, rfl⟩
  obtain ⟨-, -, -, -, -, -, e0, e1⟩ := Blocks.idx_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the run is the specification of the arguments. -/
theorem final (c : Dev nD) : (dats m 0 c).arrAt 3 cfg0.N = Fold.result m c :=
  (dats m 0 c).arrAt_eq_of_cover 3 (Fold.result m c) (flushed_eq m c) cover

/-- The kernel's run, read: every weakly fair execution terminates with the result array at the specification and the
    five arguments unchanged. -/
theorem run : θ_run defs (onTc (τ := τ) (main (F := Ideal))) ⟨m, fun _ => 0, ρ⟩ fun r => ∀ c : Dev nD,
      r.2.mem ((c : Thread nD τ).loc main_v15) = Fold.result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final
end
-- ==== Proof.RefSpec.lean ====
/-
  The reference computes the specification.

  The reference multiplies `x` by the dense weight matrix with one whole contraction over the 8192 positions of the
  shared axis and adds the bias, broadcast first to one row and then down the rows. Read at an index `i`, that is
  `(∑_K x[i₀, K] · W[K, i₁]) + bias[i₁]`: the specification's entry. The dense weight matrix is the reference's own
  host-built one (`val_main_v11`: the scatter-add reshaped); it is not opened.
-/
import proofs.«146017_j4226247819797_1_alg».proof.Proof.Gen.ReferenceIdeal.Read
import proofs.«146017_j4226247819797_1_alg».proof.Proof.Spec

noncomputable section
open Idealize.ShloMosaic Idealize.ShloMosaic.TcCoe Idealize.SL.Sem Idealize.ShloMosaic.ValueIdx

namespace Cert.ReferenceIdeal.RefSpec
open Cert.ReferenceIdeal Cert.ReferenceIdeal.Read

/-- The reference's result, as a function of its five arguments, is the specification at `x`, the reference's dense
    weight matrix and the bias. -/
theorem result_eq (x0 : (⟨S4096x8192, .f32⟩ : BufTy).Contents (Elt Ideal)) (x1 x2 : (⟨S1638400, .i32⟩ : BufTy).Contents (Elt Ideal))
    (x3 : (⟨S1638400, .f32⟩ : BufTy).Contents (Elt Ideal)) (x4 : (⟨S4096, .f32⟩ : BufTy).Contents (Elt Ideal)) :
    val_main_v15 (F := Ideal) x0 x1 x2 x3 x4 = Spec.G x0 (val_main_v11 (F := Ideal) x1 x2 x3) x4 := by
  funext i
  rw [val_main_v15_apply, val_main_v12_apply, val_main_v14_apply, val_main_v13_apply]
  have el : ∀ k : Fin 8192, lidx_main_v12 i k = ix2 (⟨(i 0).val, (i 0).isLt⟩ : Fin 4096) k := fun k =>
    funext fun a => Fin.ext (by match a with | ⟨0, _⟩ => rfl | ⟨1, _⟩ => rfl)
  have er : ∀ k : Fin 8192, ridx_main_v12 i k = ix2 k (⟨(i 1).val, (i 1).isLt⟩ : Fin 4096) := fun k =>
    funext fun a => Fin.ext (by match a with | ⟨0, _⟩ => rfl | ⟨1, _⟩ => rfl)
  have eb : idx_main_v13 (idx_main_v14 i) = ix1 (⟨(i 1).val, (i 1).isLt⟩ : Fin 4096) :=
    funext fun a => Fin.ext (by match a with | ⟨0, _⟩ => rfl)
  simp only [el, er, eb]
  rfl

end Cert.ReferenceIdeal.RefSpec
end
-- ==== Proof.lean ====
/-
  The kernel computes `x · W + bias` and so does the reference, where `W` is the dense [8192, 4096] matrix both
  programs build on the host, by the same operations, from the index vectors and the weights.

  The reference contracts the shared axis of length 8192 in one sum. The kernel tiles the [4096, 4096] result into
  sixteen [1024, 1024] blocks and, for each block, walks the shared axis in eight slices of 1024, adding each slice's
  partial product to an accumulator that starts at zero, and adds the bias row with the last slice. Over the extended
  reals — where a float is a real number or an infinity, every operation is exact, and the rounding of `x` and `W` to
  bf16 on the way into the matrix unit is the identity — the two are equal entry by entry: a finite sum in a commutative
  monoid may be taken block by block, and `0 + y = y`. Neither fact needs an entry to be finite, so the precondition
  (every float input finite) is never used.

  The modules: `BlockSum` (the sum law), `Spec` (the result as one function of the arguments, and the kernel's
  arrangement of it), `Pieces` / `Payload` (what one grid step stores, as values, entry by entry), `Blocks` (where a
  step's input blocks sit in their arrays; the host-built arrays), `Fold` (the accumulator after any step; the block a
  last step writes back), `Final` (the blocks tile the result; the kernel's run), `RefSpec` (the reference computes
  the specification). The three frames and both programs' runs are the generated modules'; the ideal pass rewrote no
  operation of the kernel, so `preserves` has nothing to state.
-/
import proofs.«146017_j4226247819797_1_alg».proof.Defs
import proofs.«146017_j4226247819797_1_alg».proof.Proof.Gen.Kernel
import proofs.«146017_j4226247819797_1_alg».proof.Proof.Gen.Kernel.Skeleton
import proofs.«146017_j4226247819797_1_alg».proof.Proof.Gen.Kernel.Launch
import proofs.«146017_j4226247819797_1_alg».proof.Proof.Gen.Kernel.Points
import proofs.«146017_j4226247819797_1_alg».proof.Proof.Gen.Kernel.Frame
import proofs.«146017_j4226247819797_1_alg».proof.Proof.Gen.KernelIdeal
import proofs.«146017_j4226247819797_1_alg».proof.Proof.Gen.KernelIdeal.Skeleton
import proofs.«146017_j4226247819797_1_alg».proof.Proof.Gen.KernelIdeal.Launch
import proofs.«146017_j4226247819797_1_alg».proof.Proof.Gen.KernelIdeal.Points
import proofs.«146017_j4226247819797_1_alg».proof.Proof.Gen.KernelIdeal.Frame
import proofs.«146017_j4226247819797_1_alg».proof.Proof.Gen.ReferenceIdeal
import proofs.«146017_j4226247819797_1_alg».proof.Proof.Gen.ReferenceIdeal.Run
import proofs.«146017_j4226247819797_1_alg».proof.Proof.Gen.ReferenceIdeal.Read
import proofs.«146017_j4226247819797_1_alg».proof.Proof.Gen.KernelIdeal.Value
import proofs.«146017_j4226247819797_1_alg».proof.Proof.Gen.Pre_finite_inputs
import proofs.«146017_j4226247819797_1_alg».proof.Proof.Final
import proofs.«146017_j4226247819797_1_alg».proof.Proof.RefSpec
import Idealize.ShloMosaic.Adequacy
import Idealize.ShloMosaic.Init

noncomputable section

namespace Cert.Proof

open Idealize.ShloMosaic Idealize.ShloMosaic.TcCoe Idealize.SL.Sem

/-- The dense weight matrix is one term in both programs: the same host operations on the same three arguments. -/
theorem wmat_eq (x1 x2 : (⟨Cert.KernelIdeal.S1638400, .i32⟩ : BufTy).Contents (Elt Ideal))
    (x3 : (⟨Cert.KernelIdeal.S1638400, .f32⟩ : BufTy).Contents (Elt Ideal)) :
    Cert.ReferenceIdeal.Read.val_main_v11 (F := Ideal) x1 x2 x3 = Cert.KernelIdeal.Blocks.wmat (F := Ideal) x1 x2 x3 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the specification of the (agreeing) arguments: the kernel's by `Final.run`, the
    reference's by its generated run read as the specification (`RefSpec.result_eq`), the two dense weight matrices
    one term (`wmat_eq`). -/
theorem algebraic : Cert.algebraic_KernelIdeal_ReferenceIdeal := by
  intro m ρ m' ρ' _ hagree
  refine ⟨fun c => Cert.KernelIdeal.Fold.result m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefSpec.result_eq,
    (hagree c).1, (hagree c).2.1, (hagree c).2.2.1, (hagree c).2.2.2.1, (hagree c).2.2.2.2, wmat_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
